-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S50000x100 : Shape := ⟨2, ![50000, 100]⟩
abbrev S64x25 : Shape := ⟨2, ![64, 25]⟩
abbrev S400x125 : Shape := ⟨2, ![400, 125]⟩
abbrev S400 : Shape := ⟨1, ![400]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S64x25 : S_.BroadcastsInDim S64x25 (![] : Fin 0 → Fin S64x25.rank)
  reducesTo_S64x25_S_d0_1 : S64x25.ReducesTo [0, 1] S_
  bcast_S_S400x125 : S_.BroadcastsInDim S400x125 (![] : Fin 0 → Fin S400x125.rank)
  reducesTo_S400x125_S_d0_1 : S400x125.ReducesTo [0, 1] S_
  bcast_S_S400 : S_.BroadcastsInDim S400 (![] : Fin 0 → Fin S400.rank)
  reducesTo_S400_S_d0 : S400.ReducesTo [0] S_

variable [Facts]

def fn_part2 {F : FTy → Type} [FloatOps F] (main_arg9 : FVec F S400 .f32) (main_v33 : IVec S_ 1) : IVec S_ 1 :=
  let main_v34 : FVec F S400 .f32 := Host.absf main_arg9
  let main_cst_12 : FVec F S_ .f32 := constant S_ .f32 0x7F800000#32
  let main_v35 : FVec F S400 .f32 := broadcastInDim S400 ![] bcast_S_S400 main_cst_12
  let main_v36 : IVec S400 1 := cmpf .olt main_v34 main_v35
  let main_c_13 : IVec S_ 1 := constantI S_ 1 1#1
  let main_v37 : IVec S_ 1 := (fun x v => Host.reduce IntOp.andi x v reducesTo_S400_S_d0 h_S_) main_v36 main_c_13
  let main_v38 : IVec S_ 1 := andi main_v33 main_v37
  main_v38

def fn_part1 {F : FTy → Type} [FloatOps F] (main_arg6 : FVec F S400 .f32) (main_arg7 : FVec F S400x125 .f32) (main_arg8 : FVec F S400 .f32) (main_arg9 : FVec F S400 .f32) (main_v13 : IVec S_ 1) (main_v16 : IVec S400 1) : IVec S_ 1 :=
  let main_c_5 : IVec S_ 1 := constantI S_ 1 1#1
  let main_v17 : IVec S_ 1 := (fun x v => Host.reduce IntOp.andi x v reducesTo_S400_S_d0 h_S_) main_v16 main_c_5
  let main_v18 : IVec S_ 1 := andi main_v13 main_v17
  let main_v19 : FVec F S400 .f32 := Host.absf main_arg6
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S400x125 .f32 := Host.absf main_arg7
  let main_cst_8 : FVec F S_ .f32 := constant S_ .f32 0x7F800000#32
  let main_v25 : FVec F S400x125 .f32 := broadcastInDim S400x125 ![] bcast_S_S400x125 main_cst_8
  let main_v26 : IVec S400x125 1 := cmpf .olt main_v24 main_v25
  let main_c_9 : IVec S_ 1 := constantI S_ 1 1#1
  let main_v27 : IVec S_ 1 := (fun x v => Host.reduce IntOp.andi x v reducesTo_S400x125_S_d0_1 h_S_) main_v26 main_c_9
  let main_v28 : IVec S_ 1 := andi main_v23 main_v27
  let main_v29 : FVec F S400 .f32 := Host.absf main_arg8
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg9 main_v33

def fn {F : FTy → Type} [FloatOps F] (main_arg0 : IVec S262144 32) (main_arg1 : IVec S262144 32) (main_arg2 : FVec F S50000x100 .f32) (main_arg3 : FVec F S64x25 .f32) (main_arg4 : FVec F S400x125 .f32) (main_arg5 : FVec F S400 .f32) (main_arg6 : FVec F S400 .f32) (main_arg7 : FVec F S400x125 .f32) (main_arg8 : FVec F S400 .f32) (main_arg9 : FVec F S400 .f32) : IVec S_ 1 :=
  let main_v0 : FVec F S50000x100 .f32 := Host.absf main_arg2
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S64x25 .f32 := Host.absf main_arg3
  let main_cst_0 : FVec F S_ .f32 := constant S_ .f32 0x7F800000#32
  let main_v5 : FVec F S64x25 .f32 := broadcastInDim S64x25 ![] bcast_S_S64x25 main_cst_0
  let main_v6 : IVec S64x25 1 := cmpf .olt main_v4 main_v5
  let main_c_1 : IVec S_ 1 := constantI S_ 1 1#1
  let main_v7 : IVec S_ 1 := (fun x v => Host.reduce IntOp.andi x v reducesTo_S64x25_S_d0_1 h_S_) main_v6 main_c_1
  let main_v8 : IVec S_ 1 := andi main_v3 main_v7
  let main_v9 : FVec F S400x125 .f32 := Host.absf main_arg4
  let main_cst_2 : FVec F S_ .f32 := constant S_ .f32 0x7F800000#32
  let main_v10 : FVec F S400x125 .f32 := broadcastInDim S400x125 ![] bcast_S_S400x125 main_cst_2
  let main_v11 : IVec S400x125 1 := cmpf .olt main_v9 main_v10
  let main_c_3 : IVec S_ 1 := constantI S_ 1 1#1
  let main_v12 : IVec S_ 1 := (fun x v => Host.reduce IntOp.andi x v reducesTo_S400x125_S_d0_1 h_S_) main_v11 main_c_3
  let main_v13 : IVec S_ 1 := andi main_v8 main_v12
  let main_v14 : FVec F S400 .f32 := Host.absf main_arg5
  let main_cst_4 : FVec F S_ .f32 := constant S_ .f32 0x7F800000#32
  let main_v15 : FVec F S400 .f32 := broadcastInDim S400 ![] bcast_S_S400 main_cst_4
  let main_v16 : IVec S400 1 := cmpf .olt main_v14 main_v15
  fn_part1 (F := F) main_arg6 main_arg7 main_arg8 main_arg9 main_v13 main_v16
-- ==== Kernel.lean ====
abbrev S262144 : Shape := ⟨1, ![262144]⟩
abbrev S50000x100 : Shape := ⟨2, ![50000, 100]⟩
abbrev S64x25 : Shape := ⟨2, ![64, 25]⟩
abbrev S400x125 : Shape := ⟨2, ![400, 125]⟩
abbrev S400 : Shape := ⟨1, ![400]⟩
abbrev S_ : Shape := ⟨0, ![]⟩
abbrev S262144x1 : Shape := ⟨2, ![262144, 1]⟩
abbrev S262144x100 : Shape := ⟨2, ![262144, 100]⟩
abbrev S262144x25 : Shape := ⟨2, ![262144, 25]⟩
abbrev S262144x125 : Shape := ⟨2, ![262144, 125]⟩
abbrev S125x400 : Shape := ⟨2, ![125, 400]⟩
abbrev S262144x200 : Shape := ⟨2, ![262144, 200]⟩
abbrev S4096x125 : Shape := ⟨2, ![4096, 125]⟩
abbrev S4096x200 : Shape := ⟨2, ![4096, 200]⟩
abbrev S4096x400 : Shape := ⟨2, ![4096, 400]⟩
abbrev S1x400 : Shape := ⟨2, ![1, 400]⟩
abbrev S4096x100 : Shape := ⟨2, ![4096, 100]⟩

abbrev nBuf : Space → Nat
  | .hbm => 38
  | .vmem => 8
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S50000x100, .f32⟩
  | .hbm, ⟨3, _⟩ => ⟨S64x25, .f32⟩
  | .hbm, ⟨4, _⟩ => ⟨S400x125, .f32⟩
  | .hbm, ⟨5, _⟩ => ⟨S400, .f32⟩
  | .hbm, ⟨6, _⟩ => ⟨S400, .f32⟩
  | .hbm, ⟨7, _⟩ => ⟨S400x125, .f32⟩
  | .hbm, ⟨8, _⟩ => ⟨S400, .f32⟩
  | .hbm, ⟨9, _⟩ => ⟨S400, .f32⟩
  | .hbm, ⟨10, _⟩ => ⟨S50000x100, .bf16⟩
  | .hbm, ⟨11, _⟩ => ⟨S64x25, .bf16⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x100, .bf16⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x25, .bf16⟩
  | .hbm, ⟨30, _⟩ => ⟨S262144x125, .bf16⟩
  | .hbm, ⟨31, _⟩ => ⟨S400, .f32⟩
  | .hbm, ⟨32, _⟩ => ⟨S400, .f32⟩
  | .hbm, ⟨33, _⟩ => ⟨S125x400, .f32⟩
  | .hbm, ⟨34, _⟩ => ⟨S125x400, .bf16⟩
  | .hbm, ⟨35, _⟩ => ⟨S125x400, .f32⟩
  | .hbm, ⟨36, _⟩ => ⟨S125x400, .bf16⟩
  | .hbm, ⟨37, _⟩ => ⟨S262144x200, .f32⟩
  | .local _ .vmem, ⟨0, _⟩ => ⟨S4096x125, .bf16⟩
  | .local _ .vmem, ⟨1, _⟩ => ⟨S4096x125, .bf16⟩
  | .local _ .vmem, ⟨2, _⟩ => ⟨S125x400, .bf16⟩
  | .local _ .vmem, ⟨3, _⟩ => ⟨S400, .f32⟩
  | .local _ .vmem, ⟨4, _⟩ => ⟨S125x400, .bf16⟩
  | .local _ .vmem, ⟨5, _⟩ => ⟨S400, .f32⟩
  | .local _ .vmem, ⟨6, _⟩ => ⟨S4096x200, .f32⟩
  | .local _ .vmem, ⟨7, _⟩ => ⟨S4096x200, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x125 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S125x400 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S125x400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S400 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S262144 : S_.BroadcastsInDim S262144 (![] : Fin 0 → Fin S262144.rank)
  bcast_S262144_S262144x1_0 : S262144.BroadcastsInDim S262144x1 (![0] : Fin 1 → Fin S262144x1.rank)
  concatenates_S262144x100_S262144x25_S262144x125_d1 : Shape.Concatenates [S262144x100, S262144x25] S262144x125 1
  transposes_S400x125_S125x400_1_0 : S400x125.Transposes [1, 0] S125x400
  inb_S4096x125_S4096x125_0_0 : ∀ a, (![0, 0] : Fin 2 → Nat) a + S4096x125.size a ≤ S4096x125.size a
  h_S4096x125 : 0 < S4096x125.numel
  shapeCasts_S4096x125_S4096x125 : S4096x125.ShapeCasts S4096x125
  inb_S125x400_S125x400_0_0 : ∀ a, (![0, 0] : Fin 2 → Nat) a + S125x400.size a ≤ S125x400.size a
  h_S125x400 : 0 < S125x400.numel
  shapeCasts_S125x400_S125x400 : S125x400.ShapeCasts S125x400
  inb_S400_S400_0 : ∀ a, (![0] : Fin 1 → Nat) a + S400.size a ≤ S400.size a
  h_S400 : 0 < S400.numel
  shapeCasts_S400_S400 : S400.ShapeCasts S400
  shapeCasts_S400_S1x400 : S400.ShapeCasts S1x400
  broadcasts_S1x400_S4096x400 : S1x400.Broadcasts S4096x400
  slices_S4096x400_o0_0_S4096x100 : S4096x400.Slices ![0, 0] S4096x100
  slices_S4096x400_o0_100_S4096x100 : S4096x400.Slices ![0, 100] S4096x100
  slices_S4096x400_o0_200_S4096x100 : S4096x400.Slices ![0, 200] S4096x100
  slices_S4096x400_o0_300_S4096x100 : S4096x400.Slices ![0, 300] S4096x100
  concatenates_S4096x100_S4096x100_S4096x200_d1 : Shape.Concatenates [S4096x100, S4096x100] S4096x200 1
  inb_S4096x200_S4096x200_0_0 : ∀ a, (![0, 0] : Fin 2 → Nat) a + S4096x200.size a ≤ S4096x200.size a
  h_S4096x200 : 0 < S4096x200.numel
  gather_S50000x100_S262144x1_S262144x100_1_0_n_n_0_1_1100_wf : GatherDims.WF S50000x100 S262144x1 S262144x100 [1] [0] [] [0] [] 1 ![1, 100]
  gather_S64x25_S262144x1_S262144x25_1_0_n_n_0_1_125_wf : GatherDims.WF S64x25 S262144x1 S262144x25 [1] [0] [] [0] [] 1 ![1, 25]
  dot_S4096x125_S125x400_S4096x400_1_0_0_1_n_n_wf : DotDims.WF S4096x125 S125x400 S4096x400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x125.size a ≤ S262144x125.size a
  hwx0_0 : ∀ i : grid0.Coords, EltTy.bits .bf16 = 32 ∨ (Rect.block (s := S262144x125) S4096x125.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S125x400.size a ≤ S125x400.size a
  hwx0_1 : ∀ i : grid0.Coords, EltTy.bits .bf16 = 32 ∨ (Rect.block (s := S125x400) S125x400.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400.size a ≤ S400.size a
  hwx0_2 : ∀ i : grid0.Coords, EltTy.bits .f32 = 32 ∨ (Rect.block (s := S400) S400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S125x400.size a ≤ S125x400.size a
  hwx0_3 : ∀ i : grid0.Coords, EltTy.bits .bf16 = 32 ∨ (Rect.block (s := S125x400) S125x400.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S400.size a ≤ S400.size a
  hwx0_4 : ∀ i : grid0.Coords, EltTy.bits .f32 = 32 ∨ (Rect.block (s := S400) S400.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x200.size a ≤ S262144x200.size a
  hwx0_5 : ∀ i : grid0.Coords, EltTy.bits .f32 = 32 ∨ (Rect.block (s := S262144x200) S4096x200.size (cc0_transform_5 i) (hinb0_5 i)).WholeWords (EltTy.packing .f32)

variable [Facts₀]

def gather_S50000x100_S262144x1_S262144x100_1_0_n_n_0_1_1100 : GatherDims S50000x100 S262144x1 S262144x100 where
  offsetDims := [1]
  collapsedSliceDims := [0]
  operandBatchingDims := []
  startIndicesBatchingDims := []
  startIndexMap := [0]
  indexVectorDim := 1
  sliceSizes := ![1, 100]
  wf := gather_S50000x100_S262144x1_S262144x100_1_0_n_n_0_1_1100_wf
def gather_S64x25_S262144x1_S262144x25_1_0_n_n_0_1_125 : GatherDims S64x25 S262144x1 S262144x25 where
  offsetDims := [1]
  collapsedSliceDims := [0]
  operandBatchingDims := []
  startIndicesBatchingDims := []
  startIndexMap := [0]
  indexVectorDim := 1
  sliceSizes := ![1, 25]
  wf := gather_S64x25_S262144x1_S262144x25_1_0_n_n_0_1_125_wf
def dot_S4096x125_S125x400_S4096x400_1_0_0_1_n_n : DotDims S4096x125 S125x400 S4096x400 where
  lhsContracting := [1]
  rhsContracting := [0]
  lhsNonContracting := [0]
  rhsNonContracting := [1]
  lhsBatch := []
  rhsBatch := []
  wf := dot_S4096x125_S125x400_S4096x400_1_0_0_1_n_n_wf

abbrev win0_0 : Pipeline.Window sig grid0 :=
  Pipeline.Window.ofSpec (Memref.whole main_v16) S4096x125.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S125x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S125x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S400.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4096x200.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144 : Shape := ⟨1, ![262144]⟩
abbrev S50000x100 : Shape := ⟨2, ![50000, 100]⟩
abbrev S64x25 : Shape := ⟨2, ![64, 25]⟩
abbrev S400x125 : Shape := ⟨2, ![400, 125]⟩
abbrev S400 : Shape := ⟨1, ![400]⟩
abbrev S_ : Shape := ⟨0, ![]⟩
abbrev S262144x1 : Shape := ⟨2, ![262144, 1]⟩
abbrev S262144x100 : Shape := ⟨2, ![262144, 100]⟩
abbrev S262144x25 : Shape := ⟨2, ![262144, 25]⟩
abbrev S262144x125 : Shape := ⟨2, ![262144, 125]⟩
abbrev S125x400 : Shape := ⟨2, ![125, 400]⟩
abbrev S262144x400 : Shape := ⟨2, ![262144, 400]⟩
abbrev S1x400 : Shape := ⟨2, ![1, 400]⟩
abbrev S262144x200 : Shape := ⟨2, ![262144, 200]⟩

abbrev nBuf : Space → Nat
  | .hbm => 90
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S50000x100, .f32⟩
  | .hbm, ⟨3, _⟩ => ⟨S64x25, .f32⟩
  | .hbm, ⟨4, _⟩ => ⟨S400x125, .f32⟩
  | .hbm, ⟨5, _⟩ => ⟨S400, .f32⟩
  | .hbm, ⟨6, _⟩ => ⟨S400, .f32⟩
  | .hbm, ⟨7, _⟩ => ⟨S400x125, .f32⟩
  | .hbm, ⟨8, _⟩ => ⟨S400, .f32⟩
  | .hbm, ⟨9, _⟩ => ⟨S400, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x100, .f32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x25, .f32⟩
  | .hbm, ⟨28, _⟩ => ⟨S262144x125, .f32⟩
  | .hbm, ⟨29, _⟩ => ⟨S400, .f32⟩
  | .hbm, ⟨30, _⟩ => ⟨S125x400, .f32⟩
  | .hbm, ⟨31, _⟩ => ⟨S262144x400, .f32⟩
  | .hbm, ⟨32, _⟩ => ⟨S1x400, .f32⟩
  | .hbm, ⟨33, _⟩ => ⟨S262144x400, .f32⟩
  | .hbm, ⟨34, _⟩ => ⟨S262144x400, .f32⟩
  | .hbm, ⟨35, _⟩ => ⟨S262144x100, .f32⟩
  | .hbm, ⟨36, _⟩ => ⟨S262144x100, .f32⟩
  | .hbm, ⟨37, _⟩ => ⟨S262144x100, .f32⟩
  | .hbm, ⟨38, _⟩ => ⟨S262144x100, .f32⟩
  | .hbm, ⟨39, _⟩ => ⟨S262144x100, .f32⟩
  | .hbm, ⟨40, _⟩ => ⟨S262144x100, .f32⟩
  | .hbm, ⟨41, _⟩ => ⟨S_, .f32⟩
  | .hbm, ⟨42, _⟩ => ⟨S262144x100, .f32⟩
  | .hbm, ⟨43, _⟩ => ⟨S262144x100, .f32⟩
  | .hbm, ⟨44, _⟩ => ⟨S_, .f32⟩
  | .hbm, ⟨45, _⟩ => ⟨S262144x100, .f32⟩
  | .hbm, ⟨46, _⟩ => ⟨S262144x100, .f32⟩
  | .hbm, ⟨47, _⟩ => ⟨S262144x100, .f32⟩
  | .hbm, ⟨48, _⟩ => ⟨S262144x100, .f32⟩
  | .hbm, ⟨49, _⟩ => ⟨S262144x100, .f32⟩
  | .hbm, ⟨50, _⟩ => ⟨S262144x100, .f32⟩
  | .hbm, ⟨51, _⟩ => ⟨S_, .f32⟩
  | .hbm, ⟨52, _⟩ => ⟨S262144x100, .f32⟩
  | .hbm, ⟨53, _⟩ => ⟨S262144x100, .f32⟩
  | .hbm, ⟨54, _⟩ => ⟨S_, .f32⟩
  | .hbm, ⟨55, _⟩ => ⟨S262144x100, .f32⟩
  | .hbm, ⟨56, _⟩ => ⟨S262144x100, .f32⟩
  | .hbm, ⟨57, _⟩ => ⟨S262144x100, .f32⟩
  | .hbm, ⟨58, _⟩ => ⟨S262144x100, .f32⟩
  | .hbm, ⟨59, _⟩ => ⟨S400, .f32⟩
  | .hbm, ⟨60, _⟩ => ⟨S125x400, .f32⟩
  | .hbm, ⟨61, _⟩ => ⟨S262144x400, .f32⟩
  | .hbm, ⟨62, _⟩ => ⟨S1x400, .f32⟩
  | .hbm, ⟨63, _⟩ => ⟨S262144x400, .f32⟩
  | .hbm, ⟨64, _⟩ => ⟨S262144x400, .f32⟩
  | .hbm, ⟨65, _⟩ => ⟨S262144x100, .f32⟩
  | .hbm, ⟨66, _⟩ => ⟨S262144x100, .f32⟩
  | .hbm, ⟨67, _⟩ => ⟨S262144x100, .f32⟩
  | .hbm, ⟨68, _⟩ => ⟨S262144x100, .f32⟩
  | .hbm, ⟨69, _⟩ => ⟨S262144x100, .f32⟩
  | .hbm, ⟨70, _⟩ => ⟨S262144x100, .f32⟩
  | .hbm, ⟨71, _⟩ => ⟨S_, .f32⟩
  | .hbm, ⟨72, _⟩ => ⟨S262144x100, .f32⟩
  | .hbm, ⟨73, _⟩ => ⟨S262144x100, .f32⟩
  | .hbm, ⟨74, _⟩ => ⟨S_, .f32⟩
  | .hbm, ⟨75, _⟩ => ⟨S262144x100, .f32⟩
  | .hbm, ⟨76, _⟩ => ⟨S262144x100, .f32⟩
  | .hbm, ⟨77, _⟩ => ⟨S262144x100, .f32⟩
  | .hbm, ⟨78, _⟩ => ⟨S262144x100, .f32⟩
  | .hbm, ⟨79, _⟩ => ⟨S262144x100, .f32⟩
  | .hbm, ⟨80, _⟩ => ⟨S262144x100, .f32⟩
  | .hbm, ⟨81, _⟩ => ⟨S_, .f32⟩
  | .hbm, ⟨82, _⟩ => ⟨S262144x100, .f32⟩
  | .hbm, ⟨83, _⟩ => ⟨S262144x100, .f32⟩
  | .hbm, ⟨84, _⟩ => ⟨S_, .f32⟩
  | .hbm, ⟨85, _⟩ => ⟨S262144x100, .f32⟩
  | .hbm, ⟨86, _⟩ => ⟨S262144x100, .f32⟩
  | .hbm, ⟨87, _⟩ => ⟨S262144x100, .f32⟩
  | .hbm, ⟨88, _⟩ => ⟨S262144x100, .f32⟩
  | .hbm, ⟨89, _⟩ => ⟨S262144x200, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  concatenates_S262144x100_S262144x25_S262144x125_d1 : Shape.Concatenates [S262144x100, S262144x25] S262144x125 1
  transposes_S400x125_S125x400_1_0 : S400x125.Transposes [1, 0] S125x400
  bcast_S400_S1x400_1 : S400.BroadcastsInDim S1x400 (![1] : Fin 1 → Fin S1x400.rank)
  bcast_S1x400_S262144x400_0_1 : S1x400.BroadcastsInDim S262144x400 (![0, 1] : Fin 2 → Fin S262144x400.rank)
  slices_S262144x400_S262144x100_0_0 : S262144x400.Slices ![0, 0] S262144x100
  slices_S262144x400_S262144x100_0_100 : S262144x400.Slices ![0, 100] S262144x100
  slices_S262144x400_S262144x100_0_200 : S262144x400.Slices ![0, 200] S262144x100
  slices_S262144x400_S262144x100_0_300 : S262144x400.Slices ![0, 300] S262144x100
  bcast_S_S262144x100 : S_.BroadcastsInDim S262144x100 (![] : Fin 0 → Fin S262144x100.rank)
  concatenates_S262144x100_S262144x100_S262144x200_d1 : Shape.Concatenates [S262144x100, S262144x100] S262144x200 1
  gather_S50000x100_S262144x1_S262144x100_1_0_n_n_0_1_1100_wf : GatherDims.WF S50000x100 S262144x1 S262144x100 [1] [0] [] [0] [] 1 ![1, 100]
  gather_S64x25_S262144x1_S262144x25_1_0_n_n_0_1_125_wf : GatherDims.WF S64x25 S262144x1 S262144x25 [1] [0] [] [0] [] 1 ![1, 25]
  dot_S262144x125_S125x400_S262144x400_1_0_0_1_n_n_wf : DotDims.WF S262144x125 S125x400 S262144x400 [1] [0] [0] [1] [] []

variable [Facts₀]

def gather_S50000x100_S262144x1_S262144x100_1_0_n_n_0_1_1100 : GatherDims S50000x100 S262144x1 S262144x100 where
  offsetDims := [1]
  collapsedSliceDims := [0]
  operandBatchingDims := []
  startIndicesBatchingDims := []
  startIndexMap := [0]
  indexVectorDim := 1
  sliceSizes := ![1, 100]
  wf := gather_S50000x100_S262144x1_S262144x100_1_0_n_n_0_1_1100_wf
def gather_S64x25_S262144x1_S262144x25_1_0_n_n_0_1_125 : GatherDims S64x25 S262144x1 S262144x25 where
  offsetDims := [1]
  collapsedSliceDims := [0]
  operandBatchingDims := []
  startIndicesBatchingDims := []
  startIndexMap := [0]
  indexVectorDim := 1
  sliceSizes := ![1, 25]
  wf := gather_S64x25_S262144x1_S262144x25_1_0_n_n_0_1_125_wf
def dot_S262144x125_S125x400_S262144x400_1_0_0_1_n_n : DotDims S262144x125 S125x400 S262144x400 where
  lhsContracting := [1]
  rhsContracting := [0]
  lhsNonContracting := [0]
  rhsNonContracting := [1]
  lhsBatch := []
  rhsBatch := []
  wf := dot_S262144x125_S125x400_S262144x400_1_0_0_1_n_n_wf

class Facts : Prop extends Facts₀ where

variable [Facts]
-- ==== Proof.CellStep.lean ====
/-
  One step of an LSTM cell from the zero state, for every row of a matrix of inputs, in two directions.

  A row `x` of `X` (125 features) is sent to four gates of 100 units each by one affine map: gate entry `q` of row `n`
  is `(∑ k, X[n, k] · W[k, q]) + b[q]`, with `W` of shape [125, 400] and `b` of 400 entries; columns 0–99 are the input gate,
  100–199 the forget gate, 200–299 the cell candidate and 300–399 the output gate. Starting from a zero cell state the forget
  gate multiplies zero and drops out: the new cell state is `σ(input) · tanh(candidate)` and the hidden state is
  `σ(output) · tanh(cell)`, with `σ x = 1 / (1 + e^(-x))` and `tanh` taken on the extended reals. The forward direction
  (`Wf`, `bf`) fills columns 0–99 of the result and the backward direction (`Wb`, `bb`) columns 100–199.

  Every entry of the result depends on one row of `X` only, so the result for a band of rows of `X` is the same band
  of the result for the whole of `X` (`both_rows`).
-/
import Idealize.ShloMosaic.Lib.ValueIdx
import Idealize.ShloMosaic.PureOps.Ideal

noncomputable section

namespace Cert.CellStep

open Idealize.ShloMosaic Idealize.ShloMosaic.ValueIdx

variable {N N' : ℕ}

/-- Gate entry `q` of row `n`: the row of `X` against column `q` of `W`, plus the bias. -/
def gate (X : (⟨2, ![N, 125]⟩ : Shape).Idx → EReal) (W : (⟨2, ![125, 400]⟩ : Shape).Idx → EReal)
    (b : (⟨1, ![400]⟩ : Shape).Idx → EReal) (n : Fin N) (q : Fin 400) : EReal :=
  (∑ k : Fin 125, X (ix2 n k) * W (ix2 k q)) + b (ix1 q)

/-- Unit `j` of the hidden state of row `n` after one step from the zero state:
    `σ(output gate) · tanh (σ(input gate) · tanh (candidate))`. -/
def hidden (X : (⟨2, ![N, 125]⟩ : Shape).Idx → EReal) (W : (⟨2, ![125, 400]⟩ : Shape).Idx → EReal)
    (b : (⟨1, ![400]⟩ : Shape).Idx → EReal) (n : Fin N) (j : Fin 100) : EReal :=
  Ideal.logistic (gate X W b n ⟨300 + j.val, by omega⟩)
    * Ideal.tanh (Ideal.logistic (gate X W b n ⟨j.val, by omega⟩) * Ideal.tanh (gate X W b n ⟨200 + j.val, by omega⟩))

/-- The two directions side by side: columns below 100 are the forward hidden state, the others the backward one. -/
def both (X : (⟨2, ![N, 125]⟩ : Shape).Idx → EReal)
    (Wf : (⟨2, ![125, 400]⟩ : Shape).Idx → EReal) (bf : (⟨1, ![400]⟩ : Shape).Idx → EReal)
    (Wb : (⟨2, ![125, 400]⟩ : Shape).Idx → EReal) (bb : (⟨1, ![400]⟩ : Shape).Idx → EReal) :
    (⟨2, ![N, 200]⟩ : Shape).Idx → EReal := fun i =>
  if h : (i 1).val < 100 then hidden X Wf bf (i 0) ⟨(i 1).val, h⟩
  else hidden X Wb bb (i 0) ⟨(i 1).val - 100, by have := idx2_lt1 i; omega⟩

theorem both_left (X : (⟨2, ![N, 125]⟩ : Shape).Idx → EReal)
    (Wf : (⟨2, ![125, 400]⟩ : Shape).Idx → EReal) (bf : (⟨1, ![400]⟩ : Shape).Idx → EReal)
    (Wb : (⟨2, ![125, 400]⟩ : Shape).Idx → EReal) (bb : (⟨1, ![400]⟩ : Shape).Idx → EReal)
    (n : Fin N) (q : Fin 200) (h : q.val < 100) :
    both X Wf bf Wb bb (ix2 n q) = hidden X Wf bf n ⟨q.val, h⟩ := by
  unfold both
  exact dif_pos h

theorem both_right (X : (⟨2, ![N, 125]⟩ : Shape).Idx → EReal)
    (Wf : (⟨2, ![125, 400]⟩ : Shape).Idx → EReal) (bf : (⟨1, ![400]⟩ : Shape).Idx → EReal)
    (Wb : (⟨2, ![125, 400]⟩ : Shape).Idx → EReal) (bb : (⟨1, ![400]⟩ : Shape).Idx → EReal)
    (n : Fin N) (q : Fin 200) (h : ¬ q.val < 100) :
    both X Wf bf Wb bb (ix2 n q) = hidden X Wb bb n ⟨q.val - 100, by have := q.isLt; omega⟩ := by
  unfold both
  exact dif_neg h

/-- A gate entry reads its own row of `X` and nothing else of it. -/
theorem gate_rows (X : (⟨2, ![N, 125]⟩ : Shape).Idx → EReal) (X' : (⟨2, ![N', 125]⟩ : Shape).Idx → EReal)
    (W : (⟨2, ![125, 400]⟩ : Shape).Idx → EReal) (b : (⟨1, ![400]⟩ : Shape).Idx → EReal) (n : Fin N) (n' : Fin N')
    (hrow : ∀ k : Fin 125, X (ix2 n k) = X' (ix2 n' k)) (q : Fin 400) : gate X W b n q = gate X' W b n' q := by
  unfold gate
  rw [Finset.sum_congr rfl fun k _ => by rw [hrow k]]

theorem hidden_rows (X : (⟨2, ![N, 125]⟩ : Shape).Idx → EReal) (X' : (⟨2, ![N', 125]⟩ : Shape).Idx → EReal)
    (W : (⟨2, ![125, 400]⟩ : Shape).Idx → EReal) (b : (⟨1, ![400]⟩ : Shape).Idx → EReal) (n : Fin N) (n' : Fin N')
    (hrow : ∀ k : Fin 125, X (ix2 n k) = X' (ix2 n' k)) (j : Fin 100) : hidden X W b n j = hidden X' W b n' j := by
  unfold hidden
  rw [gate_rows X X' W b n n' hrow, gate_rows X X' W b n n' hrow, gate_rows X X' W b n n' hrow]

/-- Row `n` of the result for `X` is row `n'` of the result for `X'` when the two rows of inputs are the same row:
    the result for a band of rows is that band of the result. -/
theorem both_rows (X : (⟨2, ![N, 125]⟩ : Shape).Idx → EReal) (X' : (⟨2, ![N', 125]⟩ : Shape).Idx → EReal)
    (Wf : (⟨2, ![125, 400]⟩ : Shape).Idx → EReal) (bf : (⟨1, ![400]⟩ : Shape).Idx → EReal)
    (Wb : (⟨2, ![125, 400]⟩ : Shape).Idx → EReal) (bb : (⟨1, ![400]⟩ : Shape).Idx → EReal) (n : Fin N) (n' : Fin N')
    (hrow : ∀ k : Fin 125, X (ix2 n k) = X' (ix2 n' k)) (q : Fin 200) :
    both X Wf bf Wb bb (ix2 n q) = both X' Wf bf Wb bb (ix2 n' q) := by
  by_cases h : q.val < 100
  · rw [both_left X Wf bf Wb bb n q h, both_left X' Wf bf Wb bb n' q h, hidden_rows X X' Wf bf n n' hrow]
  · rw [both_right X Wf bf Wb bb n q h, both_right X' Wf bf Wb bb n' q h, hidden_rows X X' Wb bb n n' hrow]

end Cert.CellStep

end
-- ==== Proof.LibConcatCols.lean ====
/-
  Two matrices with the same number of rows laid side by side, read at one entry.

  Joining an [n, a] matrix and an [n, b] matrix along their columns gives an [n, c] matrix whose first a columns are the
  first matrix and whose remaining columns are the second: entry (p, q) is the first matrix's entry (p, q) when q < a, and
  the second matrix's entry (p, q - a) otherwise. Both readings are stated with the piece's own column q' and the
  arithmetic relation between q' and q, so that a caller names the column it wants and proves the relation.
-/
import Idealize.ShloMosaic.Lib.Pipeline.Value
import Idealize.ShloMosaic.Lib.ValueIdx

namespace Cert.ConcatCols

open Idealize.ShloMosaic Idealize.ShloMosaic.ValueIdx

variable {α : Type} {n a b c : Nat}

/-- A column q of the joined matrix that is column q' of the first piece (q' = q) reads the first piece. -/
theorem concat_cols_left (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (p : Fin n) (q : Fin c) (q' : Fin a)
    (hq : q'.val = q.val) :
    concatenate ⟨2, ![n, c]⟩ 1 [⟨⟨2, ![n, a]⟩, x⟩, ⟨⟨2, ![n, b]⟩, y⟩] h (ix2 p q) = x (ix2 p q') :=
  concatenate_pair_apply_left 1 x y h (ix2 p q) rfl (ix2 p q') fun ax =>
    match ax with
    | ⟨0, _⟩ => rfl
    | ⟨1, _⟩ => hq

/-- A column q of the joined matrix that lies a columns past column q' of the second piece (q' + a = q) reads the
    second piece. -/
theorem concat_cols_right (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (p : Fin n) (q : Fin c) (q' : Fin b)
    (hq : q'.val + a = q.val) :
    concatenate ⟨2, ![n, c]⟩ 1 [⟨⟨2, ![n, a]⟩, x⟩, ⟨⟨2, ![n, b]⟩, y⟩] h (ix2 p q) = y (ix2 p q') :=
  concatenate_pair_apply_right 1 x y h (ix2 p q) rfl rfl (ix2 p q')
    (fun ax hax =>
      match ax, hax with
      | ⟨0, _⟩, _ => rfl
      | ⟨1, _⟩, hax => absurd rfl hax)
    hq

end Cert.ConcatCols
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.KernelBody.lean ====
/-
  The kernel's body on one band of 4096 rows is the cell step of that band.

  The body multiplies its band of `x` by each direction's transposed weights into a zero accumulator, adds the bias as a row
  broadcast down the band, cuts the input, candidate and output gate bands out of the 400 gate columns (the forget band is
  computed and never used: the cell starts from zero), applies `σ(i) · tanh g` then `σ(o) · tanh (·)`, and joins the two
  directions by columns. Read at an entry `(p, q)`: the product's entry is the plain sum over the 125 features
  (the accumulator adds the real zero), the broadcast bias is the bias at the column, a column band starting at `o` reads
  column `o + j`, and the join reads the forward half for `q < 100` and the backward half at `q - 100` otherwise — which is
  `CellStep.both` of the body's five operands.
-/
import proofs.«163173_j28037546508993_2_alg».proof.Proof.Gen.KernelIdeal.Skeleton
import proofs.«163173_j28037546508993_2_alg».proof.Proof.CellStep
import proofs.«163173_j28037546508993_2_alg».proof.Proof.LibConcatCols
import proofs.«163173_j28037546508993_2_alg».proof.Proof.LibPlainProduct
import Idealize.ShloMosaic.Lib.ValueLayout
import Idealize.ShloMosaic.Lib.Pipeline.Value

noncomputable section

namespace Cert.KernelIdeal.Body

open Cert.KernelIdeal Cert.KernelIdeal.Gen
open Idealize.ShloMosaic Idealize.ShloMosaic.ValueIdx

/-! ## The matrix product at an entry -/

theorem lhs_row (i : S4096x400.Idx) (q : dot_S4096x125_S125x400_S4096x400_1_0_0_1_n_n.contr.Idx) :
    (dot_S4096x125_S125x400_S4096x400_1_0_0_1_n_n.lhsIdx i q 0).val = (i 0).val := by
  unfold DotDims.lhsIdx
  rw [dif_neg (show ¬(0 : Fin S4096x125.rank) ∈ dot_S4096x125_S125x400_S4096x400_1_0_0_1_n_n.lhsBatch by decide),
    dif_pos (show (0 : Fin S4096x125.rank) ∈ dot_S4096x125_S125x400_S4096x400_1_0_0_1_n_n.lhsNonContracting by decide)]
  rfl

theorem lhs_col (i : S4096x400.Idx) (q : dot_S4096x125_S125x400_S4096x400_1_0_0_1_n_n.contr.Idx) :
    (dot_S4096x125_S125x400_S4096x400_1_0_0_1_n_n.lhsIdx i q 1).val = (q ⟨0, by decide⟩).val :=
  dot_S4096x125_S125x400_S4096x400_1_0_0_1_n_n.lhsIdx_val_of_single rfl i q

theorem rhs_row (i : S4096x400.Idx) (q : dot_S4096x125_S125x400_S4096x400_1_0_0_1_n_n.contr.Idx) :
    (dot_S4096x125_S125x400_S4096x400_1_0_0_1_n_n.rhsIdx i q 0).val = (q ⟨0, by decide⟩).val :=
  dot_S4096x125_S125x400_S4096x400_1_0_0_1_n_n.rhsIdx_val_of_single rfl i q

theorem rhs_col (i : S4096x400.Idx) (q : dot_S4096x125_S125x400_S4096x400_1_0_0_1_n_n.contr.Idx) :
    (dot_S4096x125_S125x400_S4096x400_1_0_0_1_n_n.rhsIdx i q 1).val = (i 1).val := by
  unfold DotDims.rhsIdx
  rw [dif_neg (show ¬(1 : Fin S125x400.rank) ∈ dot_S4096x125_S125x400_S4096x400_1_0_0_1_n_n.rhsBatch by decide),
    dif_pos (show (1 : Fin S125x400.rank) ∈ dot_S4096x125_S125x400_S4096x400_1_0_0_1_n_n.rhsNonContracting by decide)]
  rfl

/-- Entry `(p, c)` of the band's product with a weight matrix, into the zero accumulator, is `∑ k, x[p, k] · w[k, c]`. -/
theorem product_entry (x : FVec Ideal S4096x125 .bf16) (w : FVec Ideal S125x400 .bf16) (p : Fin 4096) (c : Fin 400) :
    matmul dot_S4096x125_S125x400_S4096x400_1_0_0_1_n_n none x w (constant (F := Ideal) S4096x400 .f32 0x00000000#32) (ix2 p c)
      = ∑ k : Fin 125, x (ix2 p k) * w (ix2 k c) :=
  Cert.PlainProduct.matmul_zero_entry dot_S4096x125_S125x400_S4096x400_1_0_0_1_n_n rfl rfl lhs_row lhs_col rhs_row rhs_col x w p c

/-! ## A gate entry, and a direction's hidden state -/

/-- The gates of one direction at entry `(p, c)`: the product's entry plus the bias at `c`. -/
theorem gate_entry (x : FVec Ideal S4096x125 .bf16) (w : FVec Ideal S125x400 .bf16) (b : FVec Ideal S400 .f32)
    (p : Fin 4096) (c : Fin 400) :
    addf (matmul dot_S4096x125_S125x400_S4096x400_1_0_0_1_n_n none (shapeCast S4096x125 x shapeCasts_S4096x125_S4096x125)
          (shapeCast S125x400 w shapeCasts_S125x400_S125x400) (constant (F := Ideal) S4096x400 .f32 0x00000000#32))
        (broadcastTo S4096x400 (shapeCast S1x400 (shapeCast S400 b shapeCasts_S400_S400) shapeCasts_S400_S1x400)
          broadcasts_S1x400_S4096x400) (ix2 p c)
      = CellStep.gate x w b p c := by
  rw [shapeCast_self, shapeCast_self, shapeCast_self]
  show matmul dot_S4096x125_S125x400_S4096x400_1_0_0_1_n_n none x w (constant (F := Ideal) S4096x400 .f32 0x00000000#32) (ix2 p c)
      + broadcastTo S4096x400 (shapeCast S1x400 b shapeCasts_S400_S1x400) broadcasts_S1x400_S4096x400 (ix2 p c) = _
  rw [product_entry, broadcastTo_1b_ab_apply, shapeCast_a_1a_apply]
  rfl

/-- One direction's hidden state at `(p, j)` from its 400 gate columns `g`: the output gate is column `300 + j`, the
    input gate column `j`, the candidate column `200 + j`. -/
theorem hidden_entry (g : FVec Ideal S4096x400 .f32) (p : Fin 4096) (j : Fin 100) :
    mulf (logistic (extractStridedSlice S4096x100 ![0, 300] g slices_S4096x400_o0_300_S4096x100))
        (tanh (mulf (logistic (extractStridedSlice S4096x100 ![0, 0] g slices_S4096x400_o0_0_S4096x100))
          (tanh (extractStridedSlice S4096x100 ![0, 200] g slices_S4096x400_o0_200_S4096x100)))) (ix2 p j)
      = Ideal.logistic (g (ix2 p (⟨300 + j.val, by omega⟩ : Fin 400)))
          * Ideal.tanh (Ideal.logistic (g (ix2 p (⟨j.val, by omega⟩ : Fin 400)))
              * Ideal.tanh (g (ix2 p (⟨200 + j.val, by omega⟩ : Fin 400)))) := by
  show Ideal.logistic (extractStridedSlice S4096x100 ![0, 300] g slices_S4096x400_o0_300_S4096x100 (ix2 p j))
      * Ideal.tanh (Ideal.logistic (extractStridedSlice S4096x100 ![0, 0] g slices_S4096x400_o0_0_S4096x100 (ix2 p j))
          * Ideal.tanh (extractStridedSlice S4096x100 ![0, 200] g slices_S4096x400_o0_200_S4096x100 (ix2 p j))) = _
  rw [slice2_axis1_apply 300 g slices_S4096x400_o0_300_S4096x100 p j ⟨300 + j.val, by omega⟩ rfl,
    slice2_axis1_apply 0 g slices_S4096x400_o0_0_S4096x100 p j ⟨j.val, by omega⟩ (Nat.zero_add _).symm,
    slice2_axis1_apply 200 g slices_S4096x400_o0_200_S4096x100 p j ⟨200 + j.val, by omega⟩ rfl]

/-! ## The body's value -/

/-- What the body stores, as a function of its band of `x`, the two weight matrices and the two biases. -/
theorem payload_eq (x : FVec Ideal S4096x125 .bf16) (wf wb : FVec Ideal S125x400 .bf16) (bf bb : FVec Ideal S400 .f32) :
    k0_pay1 (F := Ideal) x wf wb bf bb = CellStep.both x wf bf wb bb := by
  funext i
  obtain ⟨p, q, rfl⟩ : ∃ (p : Fin 4096) (q : Fin 200), i = ix2 p q := ⟨i 0, i 1, eq_ix2 i⟩
  unfold k0_pay1
  by_cases h : q.val < 100
  · rw [CellStep.both_left _ _ _ _ _ p q h]
    refine (Cert.ConcatCols.concat_cols_left _ _ _ p q ⟨q.val, h⟩ rfl).trans ?_
    refine (hidden_entry _ p ⟨q.val, h⟩).trans ?_
    unfold CellStep.hidden
    rw [gate_entry, gate_entry, gate_entry]
  · rw [CellStep.both_right _ _ _ _ _ p q h]
    refine (Cert.ConcatCols.concat_cols_right _ _ _ p q ⟨q.val - 100, by have := q.isLt; omega⟩
      (by show q.val - 100 + 100 = q.val; omega)).trans ?_
    refine (hidden_entry _ p ⟨q.val - 100, by have := q.isLt; omega⟩).trans ?_
    unfold CellStep.hidden
    rw [gate_entry, gate_entry, gate_entry]

end Cert.KernelIdeal.Body

end
-- ==== Proof.Blocks.lean ====
/-
  From the bands the grid points write back to the whole result array.

  Grid point `t` stages rows `4096 t … 4096 t + 4095` of `x` and writes back the same rows of the result; the weights and
  the biases are staged whole at every point. By `KernelBody` what a point writes is the cell step of its band of `x`, and
  a cell step's row depends on the same row of `x` only (`CellStep.both_rows`), so the point writes exactly its band of
  the cell step of the whole of `x`. The 64 bands are disjoint and every row `r` lies in band `r / 4096`, so after the run
  the result array is the cell step of the arrays the region found.
-/
import proofs.«163173_j28037546508993_2_alg».proof.Proof.Gen.KernelIdeal.Value
import proofs.«163173_j28037546508993_2_alg».proof.Proof.KernelBody

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The index maps over the 64 grid points: the band of `x` moves with the band of the result, along the rows only; the
    weights and the biases stay at block zero; the result's band index is at most 63. -/
theorem idx_facts : ∀ t : Fin cfg0.N,
    win0_0.index t (0 : Fin 2) = win0_5.index t (0 : Fin 2)
    ∧ win0_0.index t (1 : Fin 2) = 0
    ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) ≤ 63 :=
  (by decide +kernel : ∀ t : Fin grid0.N, _)

/-- Every band of the result is some point's. -/
theorem idx_onto : ∀ q0 : Fin 64, ∃ t : Fin cfg0.N, win0_5.index t = ![q0.val, 0] :=
  (by decide +kernel : ∀ q0 : Fin 64, ∃ t : Fin grid0.N, win0_5.index t = ![q0.val, 0])

/-- Row `p` of point `t`'s band, as a row of the whole array. -/
def row (t : Fin cfg0.N) (p : Fin 4096) : Fin 262144 :=
  ⟨win0_5.index t (0 : Fin 2) * 4096 + p.val, by
    obtain ⟨_, _, _, _, _, _, _, _, _, hb⟩ := idx_facts t
    have := p.isLt
    omega⟩

/-! ## The staged blocks -/

/-- Entry `(p, k)` of point `t`'s band of `x` is entry `(row t p, k)` of `x`. -/
theorem blk_x (c : Dev nD) (t : Fin cfg0.N) (p : Fin 4096) (k : Fin 125) :
    iblk m c 0 t (ix2 p k) = V m c main_v16 (ix2 (row t p) k) := by
  obtain ⟨e0, e1, _⟩ := idx_facts t
  show V m c main_v16 (((cfg0.win 0).blk t).view.emb (ix2 p k)) = V m c main_v16 (ix2 (row t p) k)
  refine congrArg _ (funext fun a => Fin.ext ?_)
  match a with
  | ⟨0, _⟩ =>
    show win0_0.index t (0 : Fin 2) * 4096 + 1 * p.val = win0_5.index t (0 : Fin 2) * 4096 + p.val
    omega
  | ⟨1, _⟩ =>
    show win0_0.index t (1 : Fin 2) * 125 + 1 * k.val = k.val
    omega

/-- The forward weights are staged whole. -/
theorem blk_wf (c : Dev nD) (t : Fin cfg0.N) : iblk m c 1 t = V m c main_v20 := by
  obtain ⟨_, _, _, e0, e1, _⟩ := idx_facts t
  funext y
  show V m c main_v20 (((cfg0.win 1).blk t).view.emb y) = V m c main_v20 y
  refine congrArg _ (funext fun a => Fin.ext ?_)
  match a with
  | ⟨0, _⟩ =>
    show win0_1.index t (0 : Fin 2) * 125 + 1 * (y 0).val = (y 0).val
    omega
  | ⟨1, _⟩ =>
    show win0_1.index t (1 : Fin 2) * 400 + 1 * (y 1).val = (y 1).val
    omega

/-- The forward bias is staged whole. -/
theorem blk_bf (c : Dev nD) (t : Fin cfg0.N) : iblk m c 2 t = V m c main_v17 := by
  obtain ⟨_, _, _, _, _, e0, _⟩ := idx_facts t
  funext y
  show V m c main_v17 (((cfg0.win 2).blk t).view.emb y) = V m c main_v17 y
  refine congrArg _ (funext fun a => Fin.ext ?_)
  match a with
  | ⟨0, _⟩ =>
    show win0_2.index t (0 : Fin 1) * 400 + 1 * (y 0).val = (y 0).val
    omega

/-- The backward weights are staged whole. -/
theorem blk_wb (c : Dev nD) (t : Fin cfg0.N) : iblk m c 3 t = V m c main_v22 := by
  obtain ⟨_, _, _, _, _, _, e0, e1, _⟩ := idx_facts t
  funext y
  show V m c main_v22 (((cfg0.win 3).blk t).view.emb y) = V m c main_v22 y
  refine congrArg _ (funext fun a => Fin.ext ?_)
  match a with
  | ⟨0, _⟩ =>
    show win0_3.index t (0 : Fin 2) * 125 + 1 * (y 0).val = (y 0).val
    omega
  | ⟨1, _⟩ =>
    show win0_3.index t (1 : Fin 2) * 400 + 1 * (y 1).val = (y 1).val
    omega

/-- The backward bias is staged whole. -/
theorem blk_bb (c : Dev nD) (t : Fin cfg0.N) : iblk m c 4 t = V m c main_v18 := by
  obtain ⟨_, _, _, _, _, _, _, _, e0, _⟩ := idx_facts t
  funext y
  show V m c main_v18 (((cfg0.win 4).blk t).view.emb y) = V m c main_v18 y
  refine congrArg _ (funext fun a => Fin.ext ?_)
  match a with
  | ⟨0, _⟩ =>
    show win0_4.index t (0 : Fin 1) * 400 + 1 * (y 0).val = (y 0).val
    omega

/-- Entry `(p, q)` of point `t`'s band of the result sits at `(row t p, q)` of the result array. -/
theorem emb_out (t : Fin cfg0.N) (p : Fin 4096) (q : Fin 200) :
    ((cfg0.win 5).blk t).view.emb (ix2 p q) = ix2 (row t p) q := by
  obtain ⟨_, _, e1, _⟩ := idx_facts t
  refine funext fun a => Fin.ext ?_
  match a with
  | ⟨0, _⟩ =>
    show win0_5.index t (0 : Fin 2) * 4096 + 1 * p.val = win0_5.index t (0 : Fin 2) * 4096 + p.val
    omega
  | ⟨1, _⟩ =>
    show win0_5.index t (1 : Fin 2) * 200 + 1 * q.val = q.val
    omega

/-! ## What a point writes back -/

/-- Point `t` writes back its band of the cell step of the arrays the region found. -/
theorem flushed_eq (c : Dev nD) (t : Fin cfg0.N) :
    (dats m 0 c).flushed 5 t
      = ((cfg0.win 5).blk t).view.read (Elt Ideal) (CellStep.both (V m c main_v16) (V m c main_v20) (V m c main_v17) (V m c main_v22) (V m c main_v18)) := by
  rw [Value.flushed5]
  unfold out0_5
  rw [View.canon_unit_zero zero2]
  simp only [View.ld_unit_zero (S := S4096x125) zero2, View.ld_unit_zero (S := S125x400) zero2,
    View.ld_unit_zero (S := S400) zero1]
  rw [Body.payload_eq, blk_wf, blk_bf, blk_wb, blk_bb]
  funext j
  obtain ⟨p, q, rfl⟩ : ∃ (p : Fin 4096) (q : Fin 200), j = ix2 p q := ⟨j 0, j 1, eq_ix2 j⟩
  show CellStep.both (iblk m c 0 t) (V m c main_v20) (V m c main_v17) (V m c main_v22) (V m c main_v18) (ix2 p q)
    = CellStep.both (V m c main_v16) (V m c main_v20) (V m c main_v17) (V m c main_v22) (V m c main_v18) (((cfg0.win 5).blk t).view.emb (ix2 p q))
  rw [emb_out]
  exact CellStep.both_rows _ _ _ _ _ _ p (row t p) (fun k => blk_x m c t p k) q

/-! ## The bands cover the array -/

/-- An index is in point `t`'s band iff each coordinate is in the band's range on its axis. -/
theorem mem_blk (t : Fin cfg0.N) (i : S262144x200.Idx) :
    i ∈ ((cfg0.win 5).blk t).view.set ↔ ∀ a : Fin 2, win0_5.index t a * S4096x200.size a ≤ (i a).val
      ∧ (i a).val < win0_5.index t a * S4096x200.size a + S4096x200.size a := by
  show i ∈ ((View.whole main_v23).slice (win0_5.rect t)).set ↔ _
  rw [View.set_slice_whole, Rect.mem_set_unit]
  exact Iff.rfl

/-- Row `r` of the result lies in the band of point number `r / 4096`. -/
theorem cover (i : S262144x200.Idx) :
    ∃ t : Fin cfg0.N, (cfg0.win 5).flush t = true ∧ i ∈ ((cfg0.win 5).blk t).view.set := by
  have hi0 : (i 0).val < 262144 := (i 0).isLt
  have hi1 : (i 1).val < 200 := (i 1).isLt
  obtain ⟨t, ht⟩ := idx_onto ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 4096 ≤ (i 0).val ∧ (i 0).val < win0_5.index t (0 : Fin 2) * 4096 + 4096
    omega
  | ⟨1, _⟩ =>
    show win0_5.index t (1 : Fin 2) * 200 ≤ (i 1).val ∧ (i 1).val < win0_5.index t (1 : Fin 2) * 200 + 200
    omega

/-- After the run the result array is the cell step of the arrays the region found. -/
theorem final (c : Dev nD) :
    (dats m 0 c).arrAt 5 cfg0.N = CellStep.both (V m c main_v16) (V m c main_v20) (V m c main_v17) (V m c main_v22) (V m c main_v18) :=
  (dats m 0 c).arrAt_eq_of_cover 5 _ (fun t _ => flushed_eq m c t) cover

end Cert.KernelIdeal.Blocks

end
-- ==== Proof.Operands.lean ====
/-
  What the kernel's region finds in the five arrays it stages, as functions of the program's arguments.

  Before the region the program gathers the embedding rows (out of tables first rounded to a shorter float format), joins
  them by columns into `x`, sums each direction's two bias vectors, and transposes (then rounds) each direction's weights.
  On the extended reals a change of float format is the identity, so each of the five arrays is, as a whole array, the very
  term the reference forms for the same purpose from the same arguments: the joined gathers, the transposed weights, the
  summed biases. The gathers are carried as they stand; nothing here reads them at an index.
-/
import proofs.«163173_j28037546508993_2_alg».proof.Proof.Gen.KernelIdeal.Frame
import proofs.«163173_j28037546508993_2_alg».proof.Proof.Gen.ReferenceIdeal.Read
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The joined embedding rows `x`. -/
theorem x_eq (c : Dev nD) :
    (V m c main_v16 : S262144x125.Idx → EReal)
      = Cert.ReferenceIdeal.Read.val_main_v14 (F := Ideal) (m ((c : Thread nD τ).loc main_arg0)) (m ((c : Thread nD τ).loc main_arg1)) (m ((c : Thread nD τ).loc main_arg2)) (m ((c : Thread nD τ).loc main_arg3)) := by
  dsimp only [Gen.V, Gen.hostOps0]
  after_results_simp
  rfl

/-- The forward weights, transposed. -/
theorem wf_eq (c : Dev nD) :
    (V m c main_v20 : S125x400.Idx → EReal) = Cert.ReferenceIdeal.Read.val_main_v16 (F := Ideal) (m ((c : Thread nD τ).loc main_arg4)) := by
  dsimp only [Gen.V, Gen.hostOps0]
  after_results
  rfl

/-- The forward bias, `b_ih_f + b_hh_f`. -/
theorem bf_eq (c : Dev nD) :
    (V m c main_v17 : S400.Idx → EReal)
      = Cert.ReferenceIdeal.Read.val_main_v15 (F := Ideal) (m ((c : Thread nD τ).loc main_arg5)) (m ((c : Thread nD τ).loc main_arg6)) := by
  dsimp only [Gen.V, Gen.hostOps0]
  after_results
  rfl

/-- The backward weights, transposed. -/
theorem wb_eq (c : Dev nD) :
    (V m c main_v22 : S125x400.Idx → EReal) = Cert.ReferenceIdeal.Read.val_main_v42 (F := Ideal) (m ((c : Thread nD τ).loc main_arg7)) := by
  dsimp only [Gen.V, Gen.hostOps0]
  after_results
  rfl

/-- The backward bias, `b_ih_b + b_hh_b`. -/
theorem bb_eq (c : Dev nD) :
    (V m c main_v18 : S400.Idx → EReal)
      = Cert.ReferenceIdeal.Read.val_main_v41 (F := Ideal) (m ((c : Thread nD τ).loc main_arg8)) (m ((c : Thread nD τ).loc main_arg9)) := by
  dsimp only [Gen.V, Gen.hostOps0]
  after_results
  rfl

end Cert.KernelIdeal.Operands

end
-- ==== Proof.ReferenceCell.lean ====
/-
  The reference, read entry by entry, is the cell step of `CellStep`.

  The reference gathers the embedding rows into one matrix `x` (kept here as one array, never opened), forms each
  direction's gates `x · Wᵀ + (b_ih + b_hh)` with one matrix product and a bias row broadcast down the rows, cuts the four
  gate bands out by column, and applies `1 / (1 + e^(-·))` spelt out with a negation, an exponential, a sum with the
  constant one and a quotient. On the extended reals that spelling is the logistic function by definition, the constant's
  word is the real one, and the matrix product's entry is the plain sum over the 125 features; so each band entry is a
  `CellStep.gate`, each direction's result a `CellStep.hidden`, and the two directions joined by columns `CellStep.both`.
-/
import proofs.«163173_j28037546508993_2_alg».proof.Proof.Gen.ReferenceIdeal.Read
import proofs.«163173_j28037546508993_2_alg».proof.Proof.CellStep
import proofs.«163173_j28037546508993_2_alg».proof.Proof.LibConcatCols
import Idealize.ShloMosaic.Lib.IdealHost

noncomputable section

namespace Cert.ReferenceIdeal.Cell

open Cert.ReferenceIdeal Cert.ReferenceIdeal.Gen Cert.ReferenceIdeal.Read
open Idealize.ShloMosaic Idealize.ShloMosaic.ValueIdx Idealize.ShloMosaic.StableHlo

/-- `1 / (1 + e^(-x))`, spelt with the host's negation, exponential, sum and quotient and the constant one, is the logistic
    function on the extended reals. -/
theorem logistic_spelt (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.logistic x
  rw [Ideal.ofBits_one_f32]
  rfl

/-! ## The forward direction -/

/-- A gate entry of the forward direction: row `n` of `x` against column `q` of `W_ih_fᵀ`, plus `b_ih_f + b_hh_f` at `q`. -/
theorem fwd_gate (x0 x1 : (⟨S262144, .i32⟩ : BufTy).Contents (Elt Ideal)) (x2 : (⟨S50000x100, .f32⟩ : BufTy).Contents (Elt Ideal)) (x3 : (⟨S64x25, .f32⟩ : BufTy).Contents (Elt Ideal)) (x4 : (⟨S400x125, .f32⟩ : BufTy).Contents (Elt Ideal)) (x5 x6 : (⟨S400, .f32⟩ : BufTy).Contents (Elt Ideal))
    (n : Fin 262144) (q : Fin 400) :
    val_main_v20 (F := Ideal) x0 x1 x2 x3 x4 x5 x6 (ix2 n q)
      = CellStep.gate (val_main_v14 (F := Ideal) x0 x1 x2 x3) (val_main_v16 (F := Ideal) x4) (val_main_v15 (F := Ideal) x5 x6) n q := by
  rw [val_main_v20_apply, val_main_v17_apply, val_main_v19_apply, val_main_v18_apply]
  have el : ∀ k : Fin 125, lidx_main_v17 (ix2 n q) k = ix2 n k := fun k => funext fun a => Fin.ext (by
    match a with
    | ⟨0, _⟩ => rfl
    | ⟨1, _⟩ => rfl)
  have er : ∀ k : Fin 125, ridx_main_v17 (ix2 n q) k = ix2 k q := fun k => funext fun a => Fin.ext (by
    match a with
    | ⟨0, _⟩ => rfl
    | ⟨1, _⟩ => rfl)
  have eb : idx_main_v18 (idx_main_v19 (ix2 n q)) = ix1 q := funext fun a => Fin.ext (by
    match a with
    | ⟨0, _⟩ => rfl)
  simp only [el, er, eb]
  rfl

/-- An entry of the forward hidden state. -/
theorem fwd_hidden (x0 x1 : (⟨S262144, .i32⟩ : BufTy).Contents (Elt Ideal)) (x2 : (⟨S50000x100, .f32⟩ : BufTy).Contents (Elt Ideal)) (x3 : (⟨S64x25, .f32⟩ : BufTy).Contents (Elt Ideal)) (x4 : (⟨S400x125, .f32⟩ : BufTy).Contents (Elt Ideal)) (x5 x6 : (⟨S400, .f32⟩ : BufTy).Contents (Elt Ideal))
    (n : Fin 262144) (j : Fin 100) :
    val_main_v40 (F := Ideal) x0 x1 x2 x3 x4 x5 x6 (ix2 n j)
      = CellStep.hidden (val_main_v14 (F := Ideal) x0 x1 x2 x3) (val_main_v16 (F := Ideal) x4) (val_main_v15 (F := Ideal) x5 x6) n j := by
  rw [val_main_v40_apply, val_main_v38_apply, val_main_v37_apply, val_main_cst_5_apply, val_main_v36_apply, val_main_v35_apply,
    val_main_cst_4_apply, val_main_v34_apply, val_main_v33_apply, val_main_v24_apply, val_main_v39_apply, val_main_v32_apply,
    val_main_v30_apply, val_main_v29_apply, val_main_cst_3_apply, val_main_v28_apply, val_main_v27_apply, val_main_cst_apply,
    val_main_v26_apply, val_main_v25_apply, val_main_v21_apply, val_main_v31_apply, val_main_v23_apply,
    logistic_spelt, logistic_spelt]
  have eo : idx_main_v24 (ix2 n j) = ix2 n (⟨300 + j.val, by omega⟩ : Fin 400) := funext fun a => Fin.ext (by
    match a with
    | ⟨0, _⟩ => rfl
    | ⟨1, _⟩ => rfl)
  have ei : idx_main_v21 (ix2 n j) = ix2 n (⟨j.val, by omega⟩ : Fin 400) := funext fun a => Fin.ext (by
    match a with
    | ⟨0, _⟩ => rfl
    | ⟨1, _⟩ => rfl)
  have eg : idx_main_v23 (ix2 n j) = ix2 n (⟨200 + j.val, by omega⟩ : Fin 400) := funext fun a => Fin.ext (by
    match a with
    | ⟨0, _⟩ => rfl
    | ⟨1, _⟩ => rfl)
  rw [eo, ei, eg, fwd_gate, fwd_gate, fwd_gate]
  rfl

/-! ## The backward direction -/

/-- A gate entry of the backward direction: row `n` of `x` against column `q` of `W_ih_bᵀ`, plus `b_ih_b + b_hh_b` at `q`. -/
theorem bwd_gate (x0 x1 : (⟨S262144, .i32⟩ : BufTy).Contents (Elt Ideal)) (x2 : (⟨S50000x100, .f32⟩ : BufTy).Contents (Elt Ideal)) (x3 : (⟨S64x25, .f32⟩ : BufTy).Contents (Elt Ideal)) (x7 : (⟨S400x125, .f32⟩ : BufTy).Contents (Elt Ideal)) (x8 x9 : (⟨S400, .f32⟩ : BufTy).Contents (Elt Ideal))
    (n : Fin 262144) (q : Fin 400) :
    val_main_v46 (F := Ideal) x0 x1 x2 x3 x7 x8 x9 (ix2 n q)
      = CellStep.gate (val_main_v14 (F := Ideal) x0 x1 x2 x3) (val_main_v42 (F := Ideal) x7) (val_main_v41 (F := Ideal) x8 x9) n q := by
  rw [val_main_v46_apply, val_main_v43_apply, val_main_v45_apply, val_main_v44_apply]
  have el : ∀ k : Fin 125, lidx_main_v43 (ix2 n q) k = ix2 n k := fun k => funext fun a => Fin.ext (by
    match a with
    | ⟨0, _⟩ => rfl
    | ⟨1, _⟩ => rfl)
  have er : ∀ k : Fin 125, ridx_main_v43 (ix2 n q) k = ix2 k q := fun k => funext fun a => Fin.ext (by
    match a with
    | ⟨0, _⟩ => rfl
    | ⟨1, _⟩ => rfl)
  have eb : idx_main_v44 (idx_main_v45 (ix2 n q)) = ix1 q := funext fun a => Fin.ext (by
    match a with
    | ⟨0, _⟩ => rfl)
  simp only [el, er, eb]
  rfl

/-- An entry of the backward hidden state. -/
theorem bwd_hidden (x0 x1 : (⟨S262144, .i32⟩ : BufTy).Contents (Elt Ideal)) (x2 : (⟨S50000x100, .f32⟩ : BufTy).Contents (Elt Ideal)) (x3 : (⟨S64x25, .f32⟩ : BufTy).Contents (Elt Ideal)) (x7 : (⟨S400x125, .f32⟩ : BufTy).Contents (Elt Ideal)) (x8 x9 : (⟨S400, .f32⟩ : BufTy).Contents (Elt Ideal))
    (n : Fin 262144) (j : Fin 100) :
    val_main_v66 (F := Ideal) x0 x1 x2 x3 x7 x8 x9 (ix2 n j)
      = CellStep.hidden (val_main_v14 (F := Ideal) x0 x1 x2 x3) (val_main_v42 (F := Ideal) x7) (val_main_v41 (F := Ideal) x8 x9) n j := by
  rw [val_main_v66_apply, val_main_v64_apply, val_main_v63_apply, val_main_cst_9_apply, val_main_v62_apply, val_main_v61_apply,
    val_main_cst_8_apply, val_main_v60_apply, val_main_v59_apply, val_main_v50_apply, val_main_v65_apply, val_main_v58_apply,
    val_main_v56_apply, val_main_v55_apply, val_main_cst_7_apply, val_main_v54_apply, val_main_v53_apply, val_main_cst_6_apply,
    val_main_v52_apply, val_main_v51_apply, val_main_v47_apply, val_main_v57_apply, val_main_v49_apply,
    logistic_spelt, logistic_spelt]
  have eo : idx_main_v50 (ix2 n j) = ix2 n (⟨300 + j.val, by omega⟩ : Fin 400) := funext fun a => Fin.ext (by
    match a with
    | ⟨0, _⟩ => rfl
    | ⟨1, _⟩ => rfl)
  have ei : idx_main_v47 (ix2 n j) = ix2 n (⟨j.val, by omega⟩ : Fin 400) := funext fun a => Fin.ext (by
    match a with
    | ⟨0, _⟩ => rfl
    | ⟨1, _⟩ => rfl)
  have eg : idx_main_v49 (ix2 n j) = ix2 n (⟨200 + j.val, by omega⟩ : Fin 400) := funext fun a => Fin.ext (by
    match a with
    | ⟨0, _⟩ => rfl
    | ⟨1, _⟩ => rfl)
  rw [eo, ei, eg, bwd_gate, bwd_gate, bwd_gate]
  rfl

/-! ## Both directions, joined by columns -/

/-- The reference's result is the cell step of the gathered rows, the two transposed weight matrices and the two summed
    biases. -/
theorem result_eq (x0 x1 : (⟨S262144, .i32⟩ : BufTy).Contents (Elt Ideal)) (x2 : (⟨S50000x100, .f32⟩ : BufTy).Contents (Elt Ideal)) (x3 : (⟨S64x25, .f32⟩ : BufTy).Contents (Elt Ideal)) (x4 : (⟨S400x125, .f32⟩ : BufTy).Contents (Elt Ideal)) (x5 x6 : (⟨S400, .f32⟩ : BufTy).Contents (Elt Ideal))
    (x7 : (⟨S400x125, .f32⟩ : BufTy).Contents (Elt Ideal)) (x8 x9 : (⟨S400, .f32⟩ : BufTy).Contents (Elt Ideal)) :
    val_main_v67 (F := Ideal) x0 x1 x2 x3 x4 x5 x6 x7 x8 x9
      = CellStep.both (val_main_v14 (F := Ideal) x0 x1 x2 x3) (val_main_v16 (F := Ideal) x4) (val_main_v15 (F := Ideal) x5 x6)
          (val_main_v42 (F := Ideal) x7) (val_main_v41 (F := Ideal) x8 x9) := by
  funext i
  obtain ⟨n, q, rfl⟩ : ∃ (n : Fin 262144) (q : Fin 200), i = ix2 n q := ⟨i 0, i 1, eq_ix2 i⟩
  unfold val_main_v67
  by_cases h : q.val < 100
  · rw [CellStep.both_left _ _ _ _ _ n q h]
    exact (Cert.ConcatCols.concat_cols_left _ _ _ n q ⟨q.val, h⟩ rfl).trans (fwd_hidden x0 x1 x2 x3 x4 x5 x6 n ⟨q.val, h⟩)
  · rw [CellStep.both_right _ _ _ _ _ n q h]
    exact (Cert.ConcatCols.concat_cols_right _ _ _ n q ⟨q.val - 100, by have := q.isLt; omega⟩
      (by show q.val - 100 + 100 = q.val; omega)).trans (bwd_hidden x0 x1 x2 x3 x7 x8 x9 n ⟨q.val - 100, by have := q.isLt; omega⟩)

end Cert.ReferenceIdeal.Cell

end
-- ==== Proof.lean ====
/-
  A bidirectional LSTM applied to sequences of length one: every token's embedding row goes through one cell step from
  the zero state in each direction, and the two hidden states are laid side by side.

  Both programs gather the word and tag embedding rows and join them into one matrix `x` of 125 features per token, form
  each direction's four gate bands as `x · W_ihᵀ + (b_ih + b_hh)`, and return `σ(o) · tanh (σ(i) · tanh g)` for the forward
  direction in columns 0–99 and for the backward direction in columns 100–199 (the forget gate multiplies the zero cell
  state and drops out). The kernel does the gate arithmetic on bands of 4096 tokens, with the tables and weights first
  rounded to a shorter float format and `σ` as one logistic operation; the reference works on all tokens at once, at full
  width, with `σ x` spelt `1 / (1 + e^(-x))`.

  On the extended reals these are one function of the arguments. A change of float format is the identity, so the arrays
  the kernel's region stages are the reference's own intermediate arrays (`Operands`); the logistic operation is
  `1 / (1 + e^(-x))` by definition and a matrix product's entry is the plain sum over the features on both sides
  (`KernelBody`, `ReferenceCell`); and since a token's result depends on that token's row of `x` alone, the 64 bands the
  kernel's grid writes back tile the cell step of the whole of `x` (`Blocks`). No step uses distributivity or cancellation, so
  the inputs' finiteness is never needed. The kernel's idealization rewrote no operation, so its sanction is the trivial one.
-/
import proofs.«163173_j28037546508993_2_alg».proof.Defs
import proofs.«163173_j28037546508993_2_alg».proof.Proof.Gen.Kernel
import proofs.«163173_j28037546508993_2_alg».proof.Proof.Gen.Kernel.Frame
import proofs.«163173_j28037546508993_2_alg».proof.Proof.Gen.KernelIdeal
import proofs.«163173_j28037546508993_2_alg».proof.Proof.Gen.KernelIdeal.Frame
import proofs.«163173_j28037546508993_2_alg».proof.Proof.Gen.KernelIdeal.Value
import proofs.«163173_j28037546508993_2_alg».proof.Proof.Gen.ReferenceIdeal
import proofs.«163173_j28037546508993_2_alg».proof.Proof.Gen.ReferenceIdeal.Run
import proofs.«163173_j28037546508993_2_alg».proof.Proof.Gen.ReferenceIdeal.Read
import proofs.«163173_j28037546508993_2_alg».proof.Proof.Gen.Pre_finite_inputs
import proofs.«163173_j28037546508993_2_alg».proof.Proof.Blocks
import proofs.«163173_j28037546508993_2_alg».proof.Proof.Operands
import proofs.«163173_j28037546508993_2_alg».proof.Proof.ReferenceCell
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the cell step of the same gathered rows, transposed
    weights and summed biases. -/
theorem algebraic : Cert.algebraic_KernelIdeal_ReferenceIdeal := by
  intro m ρ m' ρ' _ hagree
  refine ⟨fun c => Cert.CellStep.both (N := 262144)
      (Cert.ReferenceIdeal.Read.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (Cert.ReferenceIdeal.Read.val_main_v16 (F := Ideal) (m ((c.tc : Thread Cert.KernelIdeal.nD Cert.KernelIdeal.τ).loc Cert.KernelIdeal.main_arg4)))
      (Cert.ReferenceIdeal.Read.val_main_v15 (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (Cert.ReferenceIdeal.Read.val_main_v42 (F := Ideal) (m ((c.tc : Thread Cert.KernelIdeal.nD Cert.KernelIdeal.τ).loc Cert.KernelIdeal.main_arg7)))
      (Cert.ReferenceIdeal.Read.val_main_v41 (F := Ideal) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · refine (θ_run Cert.KernelIdeal.defs _ _).mono (fun r h c => ⟨(h c).1.trans ?_, (h c).2⟩)
      (Cert.KernelIdeal.Value.run_blocks (F := Ideal) m ρ)
    rw [Cert.KernelIdeal.Blocks.final, Cert.KernelIdeal.Operands.x_eq, Cert.KernelIdeal.Operands.wf_eq,
      Cert.KernelIdeal.Operands.bf_eq, Cert.KernelIdeal.Operands.wb_eq, Cert.KernelIdeal.Operands.bb_eq]
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v67_eq, Cert.ReferenceIdeal.Cell.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
